-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x4096 : Shape := ⟨3, ![4, 32, 4096]⟩
abbrev S11008x4096 : Shape := ⟨2, ![11008, 4096]⟩
abbrev S4096x11008 : Shape := ⟨2, ![4096, 11008]⟩
abbrev S_ : Shape := ⟨0, ![]⟩

class Facts : Prop where
  bcast_S_S4x32x4096 : S_.BroadcastsInDim S4x32x4096 (![] : Fin 0 → Fin S4x32x4096.rank)
  reducesTo_S4x32x4096_S_d0_1_2 : S4x32x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S4x32x4096 .f32) (main_arg1 : FVec F S11008x4096 .f32) (main_arg2 : FVec F S11008x4096 .f32) (main_arg3 : FVec F S4096x11008 .f32) : IVec S_ 1 :=
  let main_v0 : FVec F S4x32x4096 .f32 := Host.absf main_arg0
  let main_cst : FVec F S_ .f32 := constant S_ .f32 0x7F800000#32
  let main_v1 : FVec F S4x32x4096 .f32 := broadcastInDim S4x32x4096 ![] bcast_S_S4x32x4096 main_cst
  let main_v2 : IVec S4x32x4096 1 := cmpf .olt main_v0 main_v1
  let main_c : IVec S_ 1 := constantI S_ 1 1#1
  let main_v3 : IVec S_ 1 := (fun x v => Host.reduce IntOp.andi x v reducesTo_S4x32x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S4x32x4096 : Shape := ⟨3, ![4, 32, 4096]⟩
abbrev S11008x4096 : Shape := ⟨2, ![11008, 4096]⟩
abbrev S4096x11008 : Shape := ⟨2, ![4096, 11008]⟩
abbrev S128x4096 : Shape := ⟨2, ![128, 4096]⟩
abbrev S2x128x4096 : Shape := ⟨3, ![2, 128, 4096]⟩
abbrev S4096x128 : Shape := ⟨2, ![4096, 128]⟩
abbrev S1x128x4096 : Shape := ⟨3, ![1, 128, 4096]⟩
abbrev S128x128 : Shape := ⟨2, ![128, 128]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S128x4096, .f32⟩
  | .hbm, ⟨5, _⟩ => ⟨S2x128x4096, .f32⟩
  | .hbm, ⟨6, _⟩ => ⟨S_, .f32⟩
  | .hbm, ⟨7, _⟩ => ⟨S128x4096, .f32⟩
  | .hbm, ⟨8, _⟩ => ⟨S4x32x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S4096x128, .f32⟩
  | .local _ .vmem, ⟨6, _⟩ => ⟨S4096x128, .f32⟩
  | .local _ .vmem, ⟨7, _⟩ => ⟨S1x128x4096, .f32⟩
  | _, _ => ⟨S4x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S4x32x4096_S128x4096 : S4x32x4096.ShapeCasts S128x4096
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  shapeCasts_S128x4096_S1x128x4096 : S128x4096.ShapeCasts S1x128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  reducesTo_S2x128x4096_S128x4096_d0 : S2x128x4096.ReducesTo [0] S128x4096
  h_S_ : 0 < S_.numel
  shapeCasts_S128x4096_S4x32x4096 : S128x4096.ShapeCasts S4x32x4096
  dot_S128x4096_S128x4096_S128x128_1_1_0_0_n_n_wf : DotDims.WF S128x4096 S128x4096 S128x128 [1] [1] [0] [0] [] []
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S11008x4096.size a
  hwx0_1 : ∀ i : grid0.Coords, EltTy.bits .f32 = 32 ∨ (Rect.block (s := S11008x4096) S128x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S11008x4096.size a
  hwx0_2 : ∀ i : grid0.Coords, EltTy.bits .f32 = 32 ∨ (Rect.block (s := S11008x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x11008.size a
  hwx0_3 : ∀ i : grid0.Coords, EltTy.bits .f32 = 32 ∨ (Rect.block (s := S4096x11008) S4096x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128x4096.size a ≤ S2x128x4096.size a
  hwx0_4 : ∀ i : grid0.Coords, EltTy.bits .f32 = 32 ∨ (Rect.block (s := S2x128x4096) S1x128x4096.size (cc0_transform_4 i) (hinb0_4 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4096x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x4096 : Shape := ⟨3, ![4, 32, 4096]⟩
abbrev S11008x4096 : Shape := ⟨2, ![11008, 4096]⟩
abbrev S4096x11008 : Shape := ⟨2, ![4096, 11008]⟩
abbrev S4x32x11008 : Shape := ⟨3, ![4, 32, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x32x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4x32x11008, .f32⟩
  | .hbm, ⟨5, _⟩ => ⟨S4x32x11008, .f32⟩
  | .hbm, ⟨6, _⟩ => ⟨S4x32x11008, .f32⟩
  | .hbm, ⟨7, _⟩ => ⟨S_, .f32⟩
  | .hbm, ⟨8, _⟩ => ⟨S4x32x11008, .f32⟩
  | .hbm, ⟨9, _⟩ => ⟨S4x32x11008, .f32⟩
  | .hbm, ⟨10, _⟩ => ⟨S_, .f32⟩
  | .hbm, ⟨11, _⟩ => ⟨S4x32x11008, .f32⟩
  | .hbm, ⟨12, _⟩ => ⟨S4x32x11008, .f32⟩
  | .hbm, ⟨13, _⟩ => ⟨S4x32x11008, .f32⟩
  | .hbm, ⟨14, _⟩ => ⟨S4x32x11008, .f32⟩
  | .hbm, ⟨15, _⟩ => ⟨S4x32x11008, .f32⟩
  | .hbm, ⟨16, _⟩ => ⟨S4x32x4096, .f32⟩
  | _, _ => ⟨S4x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S4x32x11008 : S_.BroadcastsInDim S4x32x11008 (![] : Fin 0 → Fin S4x32x11008.rank)
  dot_S4x32x4096_S11008x4096_S4x32x11008_2_1_01_0_n_n_wf : DotDims.WF S4x32x4096 S11008x4096 S4x32x11008 [2] [1] [0, 1] [0] [] []
  dot_S4x32x11008_S4096x11008_S4x32x4096_2_1_01_0_n_n_wf : DotDims.WF S4x32x11008 S4096x11008 S4x32x4096 [2] [1] [0, 1] [0] [] []

variable [Facts₀]

def dot_S4x32x4096_S11008x4096_S4x32x11008_2_1_01_0_n_n : DotDims S4x32x4096 S11008x4096 S4x32x11008 where
  lhsContracting := [2]
  rhsContracting := [1]
  lhsNonContracting := [0, 1]
  rhsNonContracting := [0]
  lhsBatch := []
  rhsBatch := []
  wf := dot_S4x32x4096_S11008x4096_S4x32x11008_2_1_01_0_n_n_wf
def dot_S4x32x11008_S4096x11008_S4x32x4096_2_1_01_0_n_n : DotDims S4x32x11008 S4096x11008 S4x32x4096 where
  lhsContracting := [2]
  rhsContracting := [1]
  lhsNonContracting := [0, 1]
  rhsNonContracting := [0]
  lhsBatch := []
  rhsBatch := []
  wf := dot_S4x32x11008_S4096x11008_S4x32x4096_2_1_01_0_n_n_wf

class Facts : Prop extends Facts₀ where

variable [Facts]
-- ==== Proof.Pieces.lean ====
/-
  What one grid point leaves in the output block's staging buffer, as a value.

  The body stores the whole [1,128,4096] block once per point (after resetting it to zero at the first tile of a
  half). Read back, the buffer holds the body's arithmetic `k0_pay2` of the four input blocks and of what the
  buffer held when the point started: the zero block at a half's first tile, the previous point's contents
  otherwise. Both hold for any float instance.
-/
import proofs.«126775_j21182778703897_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later tile of a half: the buffer held `xo`; the body leaves its arithmetic of the input blocks and `xo`. -/
theorem out_B (c : Dev nD) (i : grid0.Coords) (a2 : Memref sig .tc .vmem S128x4096 .f32) (h2 : a2.IsWhole)
    (a3 : Memref sig .tc .vmem S128x4096 .f32) (h3 : a3.IsWhole) (a4 : Memref sig .tc .vmem S128x4096 .f32) (h4 : a4.IsWhole)
    (a5 : Memref sig .tc .vmem S4096x128 .f32) (h5 : a5.IsWhole) (a6 : Memref sig .tc .vmem S1x128x4096 .f32) (h6 : a6.IsWhole)
    (hc : ¬cond0_0 i) (x0 x1 x2 : Vec F S128x4096 .f32) (x3 : Vec F S4096x128 .f32) (xo : Vec F S1x128x4096 .f32) :
    out0_B_4 c i a2 h2 a3 h3 a4 h4 a5 h5 a6 h6 hc x0 x1 x2 x3 xo = k0_pay2 x0 x1 x2 x3 xo := by
  unfold out0_B_4
  rw [View.read_writes_eq_canon _ _ _ (cover0_B_4 c i a2 h2 a3 h3 a4 h4 a5 h5 a6 h6 hc x0 x1 x2 x3 xo)]
  unfold kernelRun0_B
  dsimp only
  rw [View.canon_unit_zero hz3]
  simp only [View.readAt_eq_ld, h2.read_unread, h3.read_unread, h4.read_unread, h5.read_unread, h6.read_unread,
    View.ld_unit_zero (S := S128x4096) hz2, View.ld_unit_zero (S := S4096x128) hz2, View.ld_unit_zero (S := S1x128x4096) hz3]

/-- The first tile of a half: the body first stores the zero block, reads it back, and leaves its arithmetic of the
    input blocks and the zero block. -/
theorem out_A (c : Dev nD) (i : grid0.Coords) (a2 : Memref sig .tc .vmem S128x4096 .f32) (h2 : a2.IsWhole)
    (a3 : Memref sig .tc .vmem S128x4096 .f32) (h3 : a3.IsWhole) (a4 : Memref sig .tc .vmem S128x4096 .f32) (h4 : a4.IsWhole)
    (a5 : Memref sig .tc .vmem S4096x128 .f32) (h5 : a5.IsWhole) (a6 : Memref sig .tc .vmem S1x128x4096 .f32) (h6 : a6.IsWhole)
    (hc : cond0_0 i) (x0 x1 x2 : Vec F S128x4096 .f32) (x3 : Vec F S4096x128 .f32) :
    out0_A_4 c i a2 h2 a3 h3 a4 h4 a5 h5 a6 h6 hc x0 x1 x2 x3 = k0_pay2 x0 x1 x2 x3 (k0_pay1 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x128x4096) hz3, View.readCov_unit_zero (S := S1x128x4096) _ hz3]
  simp only [View.readAt_eq_ld, h2.read_unread, h3.read_unread, h4.read_unread, h5.read_unread,
    View.ld_unit_zero (S := S128x4096) hz2, View.ld_unit_zero (S := S4096x128) hz2]

end Cert.KernelIdeal.Pieces

end
-- ==== Proof.LibFlattenSum.lean ====
/-
  Sums over a flattened pair of feature blocks, regrouped.

  A row of 2·D·P features is laid out as two blocks of D·P features, each block indexed by (d, p) with
  p fastest: feature n = P·d + p in the first block, D·P + P·d + p in the second. Summing a function of the
  feature over the whole row is the same as summing, for each p, the two blocks' columns d — in any
  commutative monoid, so in particular on the extended reals with no finiteness assumed. Also: a sum over
  p < 2·Q split into its two halves, and a left-nested running sum from zero read as a finite sum.
-/
import Mathlib

namespace Cert.LibFlattenSum

open Finset

variable {M : Type*} [AddCommMonoid M]

/-- A sum over `Fin (D * P)` read as a double sum: `n = P * d + p`, the column `p` outermost. -/
theorem sum_block (D P : ℕ) (f : ℕ → M) :
    ∑ n : Fin (D * P), f n.val = ∑ p : Fin P, ∑ d : Fin D, f (P * d.val + p.val) := by
  rw [Finset.sum_comm]
  rw [← (finProdFinEquiv (m := D) (n := P)).sum_comp]
  rw [Fintype.sum_prod_type]
  refine Finset.sum_congr rfl fun d _ => Finset.sum_congr rfl fun p _ => ?_
  simp only [finProdFinEquiv_apply_val]
  congr 1
  ring

/-- A row of two blocks of `D * P` features each, summed column by column: for each `p` the first block's
    column and the second block's column. -/
theorem sum_two_blocks (D P : ℕ) (f : ℕ → M) :
    ∑ n : Fin (D * P + D * P), f n.val
      = ∑ p : Fin P, (∑ d : Fin D, f (P * d.val + p.val) + ∑ d : Fin D, f (D * P + (P * d.val + p.val))) := by
  rw [Fin.sum_univ_add]
  simp only [Fin.val_castAdd, Fin.val_natAdd]
  rw [sum_block D P f, sum_block D P fun n => f (D * P + n), ← Finset.sum_add_distrib]

/-- A sum over `p < Q + Q` is the sum of its two halves. -/
theorem sum_halves (Q : ℕ) (g : ℕ → M) :
    ∑ p : Fin (Q + Q), g p.val = ∑ p : Fin Q, g p.val + ∑ p : Fin Q, g (Q + p.val) := by
  rw [Fin.sum_univ_add]
  simp only [Fin.val_castAdd, Fin.val_natAdd]

end Cert.LibFlattenSum
-- ==== Proof.Spec.lean ====
/-
  The gated MLP as one scalar function, and the regrouping of its sum over hidden units.

  For one row `xr` of the activations (4096 entries), the two projection matrices `Wg`, `Wu` (11008 rows of
  4096 entries) and one row `wd` of the down projection (11008 entries), the output entry is

      out = Σ_{n < 11008}  act (xr · Wg n) (xr · Wu n) · wd n,      act g u = g · σ(g) · u,   σ(g) = 1 / (1 + e^(-g)).

  The 11008 hidden units are cut into 86 tiles of 128 consecutive units, and the 86 tiles into two halves of 43.
  A tile's contribution is the sum over its 128 units; a half's running sum after tile `n` is the sum of the
  contributions of the half's tiles up to `n`. The sum over all units is the sum of the two halves' complete
  running sums: only commutativity and associativity of addition are used, so it holds on the extended reals
  with no finiteness assumed.
-/
import Mathlib
import Idealize.ShloMosaic.PureOps.Ideal
import proofs.«126775_j21182778703897_2_alg».proof.Proof.LibFlattenSum

noncomputable section

namespace Cert.GatedMlp

open Idealize.ShloMosaic Finset

/-- The gated activation of one hidden unit: `g · σ(g) · u`. -/
def act (g u : EReal) : EReal := g * Ideal.logistic g * u

/-- A row of activations against a row of a projection matrix. -/
def dotRow (xr wr : Fin 4096 → EReal) : EReal := ∑ k : Fin 4096, xr k * wr k

variable (xr : Fin 4096 → EReal) (Wg Wu : Fin 11008 → Fin 4096 → EReal) (wd : Fin 11008 → EReal)

/-- Hidden unit `n`'s term of the output entry. -/
def term (n : Fin 11008) : EReal := act (dotRow xr (Wg n)) (dotRow xr (Wu n)) * wd n

/-- The output entry: the sum over all hidden units. -/
def out : EReal := ∑ n : Fin 11008, term xr Wg Wu wd n

/-- Hidden unit `c` of tile `t`: unit `128·t + c`. -/
def feat (t : Fin 86) (c : Fin 128) : Fin 11008 := ⟨128 * t.val + c.val, by have := t.isLt; have := c.isLt; omega⟩

/-- Tile `t`'s contribution: the sum over its 128 units. -/
def tilePart (t : Fin 86) : EReal := ∑ c : Fin 128, term xr Wg Wu wd (feat t c)

/-- The same at a natural number (zero past the last tile). -/
def tilePartN (t : ℕ) : EReal := if h : t < 86 then tilePart xr Wg Wu wd ⟨t, h⟩ else 0

theorem tilePartN_of_lt (t : ℕ) (h : t < 86) : tilePartN xr Wg Wu wd t = tilePart xr Wg Wu wd ⟨t, h⟩ := dif_pos h

/-- The running sum of a half after tile `n`: the contributions of the tiles `43·(n/43), …, n`. -/
def running (n : ℕ) : EReal := ∑ i ∈ range (n % 43 + 1), tilePartN xr Wg Wu wd (43 * (n / 43) + i)

/-- At the first tile of a half the running sum is that tile's contribution. -/
theorem running_first (n : ℕ) (h : n % 43 = 0) : running xr Wg Wu wd n = tilePartN xr Wg Wu wd n := by
  unfold running
  rw [h, Finset.sum_range_one]
  congr 1
  omega

/-- At a later tile it is the running sum after the tile before plus this tile's contribution. -/
theorem running_next (n : ℕ) (h : ¬n % 43 = 0) :
    running xr Wg Wu wd n = running xr Wg Wu wd (n - 1) + tilePartN xr Wg Wu wd n := by
  have h1 : (n - 1) / 43 = n / 43 := by omega
  have h2 : (n - 1) % 43 + 1 = n % 43 := by omega
  unfold running
  rw [h1, h2, Finset.sum_range_succ]
  congr 2
  omega

/-- THE REGROUPING: the sum over all hidden units is the sum of the two halves' complete running sums. -/
theorem out_eq_halves : out xr Wg Wu wd = ∑ j : Fin 2, running xr Wg Wu wd (43 * j.val + 42) := by
  -- the units as tiles of 128
  have e1 : out xr Wg Wu wd = ∑ t : Fin 86, tilePart xr Wg Wu wd t := by
    unfold out tilePart
    have := Cert.LibFlattenSum.sum_block (M := EReal) 86 128
      (fun n => if h : n < 11008 then term xr Wg Wu wd ⟨n, h⟩ else 0)
    rw [Finset.sum_comm] at this
    refine Eq.trans ?_ (this.trans ?_)
    · show ∑ n : Fin 11008, _ = ∑ n : Fin 11008, _
      exact Finset.sum_congr rfl fun n _ => by rw [dif_pos n.isLt]
    · refine Finset.sum_congr rfl fun t _ => Finset.sum_congr rfl fun c _ => ?_
      have : 128 * t.val + c.val < 11008 := by have := t.isLt; have := c.isLt; omega
      rw [dif_pos this]
      rfl
  -- the tiles as two halves of 43
  have e2 : ∑ t : Fin 86, tilePart xr Wg Wu wd t
      = ∑ j : Fin 2, ∑ i : Fin 43, tilePartN xr Wg Wu wd (43 * j.val + i.val) := by
    have := Cert.LibFlattenSum.sum_block (M := EReal) 2 43 (tilePartN xr Wg Wu wd)
    rw [Finset.sum_comm] at this
    refine Eq.trans ?_ this
    show ∑ t : Fin 86, _ = ∑ t : Fin 86, _
    exact Finset.sum_congr rfl fun t _ => (tilePartN_of_lt xr Wg Wu wd t.val t.isLt).symm
  rw [e1, e2]
  refine Finset.sum_congr rfl fun j _ => ?_
  unfold running
  have h1 : (43 * j.val + 42) / 43 = j.val := by omega
  have h2 : (43 * j.val + 42) % 43 + 1 = 43 := by omega
  rw [h1, h2, Finset.sum_range]

end Cert.GatedMlp

end
-- ==== Proof.Payload.lean ====
/-
  The body's arithmetic at one entry of the output block.

  With x the resident [128,4096] block of activations, g and u the point's [128,4096] row tiles of the gate and up
  projections, d the point's [4096,128] column tile of the down projection and o the [1,128,4096] contents of the
  output block, the body stores

      o[0,r,h] + Σ_{c<128} act (x[r,:] · g[c,:]) (x[r,:] · u[c,:]) · d[h,c]

  at (0, r, h): the changes of float format are the identity on the extended reals, each matrix product into a
  zero accumulator is the plain sum over its contracted axis, and the casts between [128,4096] and [1,128,4096]
  keep the row-major position.
-/
import proofs.«126775_j21182778703897_2_alg».proof.Proof.Gen.KernelIdeal.Skeleton
import proofs.«126775_j21182778703897_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx Cert.GatedMlp

/-- The dimension numbers of the two projections x · wᵀ: both operands contracted on their second axis. -/
abbrev dUp : DotDims S128x4096 S128x4096 S128x128 := dot_S128x4096_S128x4096_S128x128_1_1_0_0_n_n
/-- The dimension numbers of the down projection h · dᵀ. -/
abbrev dDown : DotDims S128x128 S4096x128 S128x4096 := dot_S128x128_S4096x128_S128x4096_1_1_0_0_n_n

theorem up_lhs0 (i : S128x128.Idx) (q : dUp.contr.Idx) : (dUp.lhsIdx i q 0).val = (i 0).val := by
  unfold DotDims.lhsIdx
  rw [dif_neg (show ¬(0 : Fin S128x4096.rank) ∈ dUp.lhsBatch by decide), dif_pos (show (0 : Fin S128x4096.rank) ∈ dUp.lhsNonContracting by decide)]
  rfl
theorem up_rhs0 (i : S128x128.Idx) (q : dUp.contr.Idx) : (dUp.rhsIdx i q 0).val = (i 1).val := by
  unfold DotDims.rhsIdx
  rw [dif_neg (show ¬(0 : Fin S128x4096.rank) ∈ dUp.rhsBatch by decide), dif_pos (show (0 : Fin S128x4096.rank) ∈ dUp.rhsNonContracting by decide)]
  rfl
theorem down_lhs0 (i : S128x4096.Idx) (q : dDown.contr.Idx) : (dDown.lhsIdx i q 0).val = (i 0).val := by
  unfold DotDims.lhsIdx
  rw [dif_neg (show ¬(0 : Fin S128x128.rank) ∈ dDown.lhsBatch by decide), dif_pos (show (0 : Fin S128x128.rank) ∈ dDown.lhsNonContracting by decide)]
  rfl
theorem down_rhs0 (i : S128x4096.Idx) (q : dDown.contr.Idx) : (dDown.rhsIdx i q 0).val = (i 1).val := by
  unfold DotDims.rhsIdx
  rw [dif_neg (show ¬(0 : Fin S4096x128.rank) ∈ dDown.rhsBatch by decide), dif_pos (show (0 : Fin S4096x128.rank) ∈ dDown.rhsNonContracting by decide)]
  rfl

/-- A projection into the zero accumulator at (r, c): row r of the left operand against row c of the right. -/
theorem up_apply {φ₁ φ₂ : FTy} (l : FVec Ideal S128x4096 φ₁) (w : FVec Ideal S128x4096 φ₂) (r c : Fin 128) :
    matmul dUp none l w (constant (F := Ideal) S128x128 .f32 0x00000000#32) (ix2 r c) = ∑ k : Fin 4096, l (ix2 r k) * w (ix2 c k) := by
  refine (Ideal.matmul_constant_zero_apply dUp none l w (ix2 r c)).trans ?_
  rw [← Equiv.sum_comp (contrEquiv1 dUp 4096 rfl rfl).symm]
  refine Finset.sum_congr rfl fun k _ => ?_
  have hk := contrEquiv1_symm_val dUp 4096 rfl rfl k
  have el : dUp.lhsIdx (ix2 r c) ((contrEquiv1 dUp 4096 rfl rfl).symm k) = ix2 r k := funext fun a => Fin.ext (by
    match a with
    | ⟨0, _⟩ => exact up_lhs0 _ _
    | ⟨1, _⟩ => exact (dUp.lhsIdx_val_of_single rfl _ _).trans hk)
  have er : dUp.rhsIdx (ix2 r c) ((contrEquiv1 dUp 4096 rfl rfl).symm k) = ix2 c k := funext fun a => Fin.ext (by
    match a with
    | ⟨0, _⟩ => exact up_rhs0 _ _
    | ⟨1, _⟩ => exact (dUp.rhsIdx_val_of_single rfl _ _).trans hk)
  rw [el, er]

/-- The down projection into the zero accumulator at (r, h): row r of the hidden block against row h of the tile. -/
theorem down_apply {φ₁ φ₂ : FTy} (l : FVec Ideal S128x128 φ₁) (w : FVec Ideal S4096x128 φ₂) (r : Fin 128) (h : Fin 4096) :
    matmul dDown none l w (constant (F := Ideal) S128x4096 .f32 0x00000000#32) (ix2 r h) = ∑ c : Fin 128, l (ix2 r c) * w (ix2 h c) := by
  refine (Ideal.matmul_constant_zero_apply dDown none l w (ix2 r h)).trans ?_
  rw [← Equiv.sum_comp (contrEquiv1 dDown 128 rfl rfl).symm]
  refine Finset.sum_congr rfl fun k _ => ?_
  have hk := contrEquiv1_symm_val dDown 128 rfl rfl k
  have el : dDown.lhsIdx (ix2 r h) ((contrEquiv1 dDown 128 rfl rfl).symm k) = ix2 r k := funext fun a => Fin.ext (by
    match a with
    | ⟨0, _⟩ => exact down_lhs0 _ _
    | ⟨1, _⟩ => exact (dDown.lhsIdx_val_of_single rfl _ _).trans hk)
  have er : dDown.rhsIdx (ix2 r h) ((contrEquiv1 dDown 128 rfl rfl).symm k) = ix2 h k := funext fun a => Fin.ext (by
    match a with
    | ⟨0, _⟩ => exact down_rhs0 _ _
    | ⟨1, _⟩ => exact (dDown.rhsIdx_val_of_single rfl _ _).trans hk)
  rw [el, er]

/-- The activations projected against a [128,4096] row tile of a projection matrix: a [128,128] block. -/
def proj (x w : Vec Ideal S128x4096 .f32) : FVec Ideal S128x128 .f32 :=
  matmul dUp none (truncf .bf16 (shapeCast S128x4096 x shapeCasts_S128x4096_S128x4096) bitsLt_bf16_f32)
    (truncf .bf16 w bitsLt_bf16_f32) (constant (F := Ideal) S128x128 .f32 0x00000000#32)

/-- The gated hidden block of the tile. -/
def hiddenBlk (x g u : Vec Ideal S128x4096 .f32) : FVec Ideal S128x128 .f32 :=
  mulf (mulf (proj x g) (logistic (proj x g))) (proj x u)

/-- The body's stored value is the composition of these. -/
theorem pay2_eq (x g u : Vec Ideal S128x4096 .f32) (d : Vec Ideal S4096x128 .f32) (o : Vec Ideal S1x128x4096 .f32) :
    k0_pay2 (F := Ideal) x g u d o
      = shapeCast S1x128x4096
          (addf (shapeCast S128x4096 o shapeCasts_S1x128x4096_S128x4096)
            (matmul dDown none (truncf .bf16 (hiddenBlk x g u) bitsLt_bf16_f32) (truncf .bf16 d bitsLt_bf16_f32)
              (constant (F := Ideal) S128x4096 .f32 0x00000000#32)))
          shapeCasts_S128x4096_S1x128x4096 := rfl

theorem proj_apply (x w : Vec Ideal S128x4096 .f32) (r c : Fin 128) :
    proj x w (ix2 r c) = dotRow (fun k => x (ix2 r k)) (fun k => w (ix2 c k)) := by
  unfold proj
  refine (up_apply _ _ r c).trans ?_
  unfold dotRow
  refine Finset.sum_congr rfl fun k _ => ?_
  rw [truncf_apply, truncf_apply, shapeCast_self]

theorem hiddenBlk_apply (x g u : Vec Ideal S128x4096 .f32) (r c : Fin 128) :
    hiddenBlk x g u (ix2 r c)
      = act (dotRow (fun k => x (ix2 r k)) (fun k => g (ix2 c k))) (dotRow (fun k => x (ix2 r k)) (fun k => u (ix2 c k))) := by
  show proj x g (ix2 r c) * Ideal.logistic (proj x g (ix2 r c)) * proj x u (ix2 r c) = _
  rw [proj_apply, proj_apply]
  rfl

/-- THE STORED VALUE AT (0, r, h). -/
theorem pay2_apply (x g u : Vec Ideal S128x4096 .f32) (d : Vec Ideal S4096x128 .f32) (o : Vec Ideal S1x128x4096 .f32)
    (r : Fin 128) (h : Fin 4096) :
    k0_pay2 (F := Ideal) x g u d o (ix3 (0 : Fin 1) r h)
      = o (ix3 (0 : Fin 1) r h)
        + ∑ c : Fin 128, act (dotRow (fun k => x (ix2 r k)) (fun k => g (ix2 c k)))
            (dotRow (fun k => x (ix2 r k)) (fun k => u (ix2 c k))) * d (ix2 h c) := by
  rw [pay2_eq]
  refine (shapeCast_ab_1ab_apply _ shapeCasts_S128x4096_S1x128x4096 0 r h).trans ?_
  rw [addf_apply, shapeCast_1ab_ab_apply, down_apply]
  refine congrArg (o (ix3 (0 : Fin 1) r h) + ·) (Finset.sum_congr rfl fun c _ => ?_)
  rw [truncf_apply, truncf_apply, hiddenBlk_apply]

/-- The zero block the reset stores, at any entry. -/
theorem pay1_apply (i : S1x128x4096.Idx) : k0_pay1 (F := Ideal) i = 0 := by
  obtain ⟨u, r, h, rfl⟩ : ∃ (u : Fin 1) (r : Fin 128) (h : Fin 4096), i = ix3 u r h := ⟨i 0, i 1, i 2, eq_ix3 i⟩
  unfold k0_pay1
  refine (shapeCast_ab_1ab_apply _ shapeCasts_S128x4096_S1x128x4096 u r h).trans ?_
  show Ideal.ofBits .f32 0x00000000#32 = 0
  exact Ideal.ofBits_zero_f32

end Cert.KernelIdeal.Payload

end
-- ==== Proof.Blocks.lean ====
/-
  The windows' blocks read where the arrays say.

  The grid has 86 points; point t works on tile t of the hidden units (the index maps send (j, i) to tile 43·j + i,
  which is the point's own position). So at point t the gate and up windows hold rows 128·t … 128·t + 127 of their
  matrices, the down window holds columns 128·t … 128·t + 127, and the activation window holds the whole [128,4096]
  array, which the host wrote before the region as the [4,32,4096] argument reshaped: row 32·b + s is row (b, s).
-/
import proofs.«126775_j21182778703897_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelIdeal.Blocks

open Cert.KernelIdeal Cert.KernelIdeal.Gen
open Idealize.ShloMosaic Idealize.ShloMosaic.TcCoe Idealize.ShloMosaic.Tactic Idealize.SL.Sem
open Idealize.ShloMosaic.ValueIdx

variable {F : FTy → Type} [FloatOps F]
variable (m : (ℓ : Loc nD τ sig) → Buf (Elt F) ℓ)

/-- The index maps over the grid: the activation block never moves; the three weight windows are on tile `t`;
    the output block is the half's, `t / 43`. -/
theorem idx_facts : ∀ t : Fin cfg0.N,
    (win0_0.index t 0 = 0 ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val)
    ∧ (win0_4.index t 0 = t.val / 43 ∧ win0_4.index t 1 = 0 ∧ win0_4.index t 2 = 0) :=
  (by decide +kernel : ∀ t : Fin grid0.N,
    (win0_0.index t 0 = 0 ∧ win0_0.index t 1 = 0)
    ∧ (win0_1.index t 0 = t.val ∧ win0_1.index t 1 = 0)
    ∧ (win0_2.index t 0 = t.val ∧ win0_2.index t 1 = 0)
    ∧ (win0_3.index t 0 = 0 ∧ win0_3.index t 1 = t.val)
    ∧ (win0_4.index t 0 = t.val / 43 ∧ win0_4.index t 1 = 0 ∧ win0_4.index t 2 = 0))

theorem lt86 (t : Fin cfg0.N) : t.val < 86 := lt_of_lt_of_eq t.isLt (show cfg0.N = 86 from N_0)

/-- Row `128·t + c` of an [11008, ·] matrix, for a tile `t` and a lane `c`. -/
abbrev tileRow (t : Fin cfg0.N) (c : Fin 128) : Fin 11008 := ⟨128 * t.val + c.val, by have := lt86 t; have := c.isLt; omega⟩

/-- The activation window's block is the whole [128,4096] array. -/
theorem iblk0_apply (c : Dev nD) (t : Fin cfg0.N) (r : Fin 128) (k : Fin 4096) :
    (iblk m c 0 t : Vec F S128x4096 .f32) (ix2 r k) = V m c main_v0 (ix2 r k) := by
  unfold iblk
  rw [View.read_apply]
  show V m c main_v0 _ = V m c main_v0 _
  congr 1
  funext a
  apply Fin.ext
  match a with
  | ⟨0, _⟩ => show win0_0.index t 0 * 128 + 1 * r.val = r.val; rw [(idx_facts t).1.1]; omega
  | ⟨1, _⟩ => show win0_0.index t 1 * 4096 + 1 * k.val = k.val; rw [(idx_facts t).1.2]; omega

/-- The gate window's block at point `t`: rows `128·t + c` of the gate matrix. -/
theorem iblk1_apply (c : Dev nD) (t : Fin cfg0.N) (cc : Fin 128) (k : Fin 4096) :
    (iblk m c 1 t : Vec F S128x4096 .f32) (ix2 cc k) = m ((c : Thread nD τ).loc main_arg1) (ix2 (tileRow t cc) k) := by
  unfold iblk
  rw [View.read_apply]
  show V m c main_arg1 _ = _
  rw [V_main_arg1]
  congr 1
  funext a
  apply Fin.ext
  match a with
  | ⟨0, _⟩ => show win0_1.index t 0 * 128 + 1 * cc.val = 128 * t.val + cc.val; rw [(idx_facts t).2.1.1]; omega
  | ⟨1, _⟩ => show win0_1.index t 1 * 4096 + 1 * k.val = k.val; rw [(idx_facts t).2.1.2]; omega

/-- The up window's block at point `t`: rows `128·t + c` of the up matrix. -/
theorem iblk2_apply (c : Dev nD) (t : Fin cfg0.N) (cc : Fin 128) (k : Fin 4096) :
    (iblk m c 2 t : Vec F S128x4096 .f32) (ix2 cc k) = m ((c : Thread nD τ).loc main_arg2) (ix2 (tileRow t cc) k) := by
  unfold iblk
  rw [View.read_apply]
  show V m c main_arg2 _ = _
  rw [V_main_arg2]
  congr 1
  funext a
  apply Fin.ext
  match a with
  | ⟨0, _⟩ => show win0_2.index t 0 * 128 + 1 * cc.val = 128 * t.val + cc.val; rw [(idx_facts t).2.2.1.1]; omega
  | ⟨1, _⟩ => show win0_2.index t 1 * 4096 + 1 * k.val = k.val; rw [(idx_facts t).2.2.1.2]; omega

/-- The down window's block at point `t`: columns `128·t + c` of the down matrix. -/
theorem iblk3_apply (c : Dev nD) (t : Fin cfg0.N) (h : Fin 4096) (cc : Fin 128) :
    (iblk m c 3 t : Vec F S4096x128 .f32) (ix2 h cc) = m ((c : Thread nD τ).loc main_arg3) (ix2 h (tileRow t cc)) := by
  unfold iblk
  rw [View.read_apply]
  show V m c main_arg3 _ = _
  rw [V_main_arg3]
  congr 1
  funext a
  apply Fin.ext
  match a with
  | ⟨0, _⟩ => show win0_3.index t 0 * 4096 + 1 * h.val = h.val; rw [(idx_facts t).2.2.2.1.1]; omega
  | ⟨1, _⟩ => show win0_3.index t 1 * 128 + 1 * cc.val = 128 * t.val + cc.val; rw [(idx_facts t).2.2.2.1.2]; omega

/-- The activation array as the region finds it: the [4,32,4096] argument reshaped to [128,4096]. -/
theorem V_main_v0 (c : Dev nD) :
    (V m c main_v0 : S128x4096.Idx → Elt F .f32)
      = shapeCast S128x4096 (m ((c : Thread nD τ).loc main_arg0)) shapeCasts_S4x32x4096_S128x4096 := by
  show StableHlo.after hostOps0 (fun b => m (c, b)) (Proc.devRef .tc main_v0) = _
  after_results
  rfl

/-- Row `32·b + s` of the reshaped activations is row (b, s) of the argument. -/
theorem V_main_v0_apply (c : Dev nD) (b : Fin 4) (s : Fin 32) (k : Fin 4096) (r : Fin 128) (hr : r.val = 32 * b.val + s.val) :
    V m c main_v0 (ix2 r k) = m ((c : Thread nD τ).loc main_arg0) (ix3 b s k) := by
  rw [V_main_v0]
  refine shapeCast_apply _ _ _ _ ?_
  show (S4x32x4096.rowMajor (ix3 b s k)).val = (S128x4096.rowMajor (ix2 r k)).val
  rw [Shape.rowMajor_val_three, Shape.rowMajor_val_two]
  show (b.val * 32 + s.val) * 4096 + k.val = r.val * 4096 + k.val
  rw [hr]
  ring

end Cert.KernelIdeal.Blocks

end
-- ==== Proof.Accumulate.lean ====
/-
  The output block's staging buffer after each grid point is the half's running sum.

  At entry (0, r, h), after point n, the buffer holds the sum of the contributions of the tiles 43·(n/43), …, n to
  the output entry of row r of the activations and row h of the down projection: at a half's first tile the reset
  stores zero and the body adds the tile's contribution (0 + p = p), at a later tile the body adds the tile's
  contribution to what the point before left. By induction on the point.
-/
import proofs.«126775_j21182778703897_2_alg».proof.Proof.Pieces
import proofs.«126775_j21182778703897_2_alg».proof.Proof.Payload
import proofs.«126775_j21182778703897_2_alg».proof.Proof.Blocks
import proofs.«126775_j21182778703897_2_alg».proof.Proof.Spec

set_option maxRecDepth 16384

noncomputable section

namespace Cert.KernelIdeal.Accumulate

open Cert.KernelIdeal Cert.KernelIdeal.Gen
open Idealize.ShloMosaic Idealize.ShloMosaic.TcCoe Idealize.SL.Sem
open Idealize.ShloMosaic.ValueIdx Cert.GatedMlp

variable (m : (ℓ : Loc nD τ sig) → Buf (Elt Ideal) ℓ)

/-- Row `r` of the [128,4096] activations as the region finds them. -/
def xrow (c : Dev nD) (r : Fin 128) : Fin 4096 → EReal := fun k => V m c main_v0 (ix2 r k)
/-- The gate matrix, row by row. -/
def Wg (c : Dev nD) : Fin 11008 → Fin 4096 → EReal := fun n k => m ((c : Thread nD τ).loc main_arg1) (ix2 n k)
/-- The up matrix, row by row. -/
def Wu (c : Dev nD) : Fin 11008 → Fin 4096 → EReal := fun n k => m ((c : Thread nD τ).loc main_arg2) (ix2 n k)
/-- Row `h` of the down matrix. -/
def wdrow (c : Dev nD) (h : Fin 4096) : Fin 11008 → EReal := fun n => m ((c : Thread nD τ).loc main_arg3) (ix2 h n)

/-- ONE POINT: over contents `o` of the output block, the body stores `o` plus tile `t`'s contribution. -/
theorem point_apply (c : Dev nD) (t : Fin cfg0.N) (o : Vec Ideal S1x128x4096 .f32) (r : Fin 128) (h : Fin 4096) :
    k0_pay2 (F := Ideal) (iblk m c 0 t) (iblk m c 1 t) (iblk m c 2 t) (iblk m c 3 t) o (ix3 (0 : Fin 1) r h)
      = o (ix3 (0 : Fin 1) r h) + tilePartN (xrow m c r) (Wg m c) (Wu m c) (wdrow m c h) t.val := by
  refine (Payload.pay2_apply (iblk m c 0 t) (iblk m c 1 t) (iblk m c 2 t) (iblk m c 3 t) o r h).trans ?_
  rw [tilePartN_of_lt _ _ _ _ t.val (Blocks.lt86 t)]
  unfold tilePart
  refine congrArg (o (ix3 (0 : Fin 1) r h) + ·) (Finset.sum_congr rfl fun cc _ => ?_)
  unfold term dotRow
  simp only [Blocks.iblk0_apply, Blocks.iblk1_apply, Blocks.iblk2_apply, Blocks.iblk3_apply]
  rfl

/-- A half's first tile: the buffer ends at the tile's contribution. -/
theorem step_first (c : Dev nD) (t : Fin cfg0.N) (h0 : t.val % 43 = 0) (r : Fin 128) (h : Fin 4096) :
    outsAt0 m c t.val t.isLt (ix3 (0 : Fin 1) r h) = running (xrow m c r) (Wg m c) (Wu m c) (wdrow m c h) t.val := by
  refine (congrFun ((outsAt0_A m c t h0).trans
    (Pieces.out_A (F := Ideal) c (grid0.coords t) (ms0_0 t) (hs0_0 t) (ms0_1 t) (hs0_1 t) (ms0_2 t) (hs0_2 t) (ms0_3 t) (hs0_3 t)
      (ms0_4 t) (hs0_4 t) ((hcond0_0 t).mpr h0) (iblk m c 0 t) (iblk m c 1 t) (iblk m c 2 t) (iblk m c 3 t))) (ix3 (0 : Fin 1) r h)).trans ?_
  refine (point_apply m c t (k0_pay1 (F := Ideal)) r h).trans ?_
  rw [Payload.pay1_apply, zero_add, running_first _ _ _ _ _ h0]

/-- A later tile: the buffer ends at what the point before left plus the tile's contribution. -/
theorem step_next (c : Dev nD) (t : Fin cfg0.N) (h0 : ¬t.val % 43 = 0)
    (ih : ∀ (hp : t.val - 1 < cfg0.N) (r : Fin 128) (h : Fin 4096),
      outsAt0 m c (t.val - 1) hp (ix3 (0 : Fin 1) r h) = running (xrow m c r) (Wg m c) (Wu m c) (wdrow m c h) (t.val - 1))
    (r : Fin 128) (h : Fin 4096) :
    outsAt0 m c t.val t.isLt (ix3 (0 : Fin 1) r h) = running (xrow m c r) (Wg m c) (Wu m c) (wdrow m c h) t.val := by
  refine (congrFun ((outsAt0_B m c t h0).trans
    (Pieces.out_B (F := Ideal) c (grid0.coords t) (ms0_0 t) (hs0_0 t) (ms0_1 t) (hs0_1 t) (ms0_2 t) (hs0_2 t) (ms0_3 t) (hs0_3 t)
      (ms0_4 t) (hs0_4 t) (fun hh => h0 ((hcond0_0 t).mp hh)) (iblk m c 0 t) (iblk m c 1 t) (iblk m c 2 t) (iblk m c 3 t)
      (outsAt0 m c (t.val - 1) (Nat.lt_of_le_of_lt (Nat.sub_le _ _) t.isLt)))) (ix3 (0 : Fin 1) r h)).trans ?_
  refine (point_apply m c t (outsAt0 m c (t.val - 1) (Nat.lt_of_le_of_lt (Nat.sub_le _ _) t.isLt)) r h).trans ?_
  rw [ih _ r h, running_next _ _ _ _ _ h0]

/-- THE RUNNING SUM: after point `n` the output block's buffer holds, at (0, r, h), the half's running sum. -/
theorem outsAt_apply (c : Dev nD) : ∀ (n : ℕ) (hn : n < cfg0.N) (r : Fin 128) (h : Fin 4096),
    outsAt0 m c n hn (ix3 (0 : Fin 1) r h) = running (xrow m c r) (Wg m c) (Wu m c) (wdrow m c h) n
  | 0, hn, r, h => step_first m c ⟨0, hn⟩ (Nat.zero_mod 43) r h
  | n + 1, hn, r, h => by
    by_cases h0 : (n + 1) % 43 = 0
    · exact step_first m c ⟨n + 1, hn⟩ h0 r h
    · exact step_next m c ⟨n + 1, hn⟩ h0 (fun hp r h => outsAt_apply c n hp r h) r h

end Cert.KernelIdeal.Accumulate

end
-- ==== Proof.Final.lean ====
/-
  The kernel's output array after the run: the two halves' partial results.

  The output window's block is the half's, written back once, after the half's last tile (points 42 and 85). What
  is written back is the running sum after that tile, so the [2,128,4096] array ends holding, at (j, r, h), the
  complete running sum of half j for row r of the activations and row h of the down projection. The two blocks
  tile the array: entry (j, r, h) is in the block written back at point 43·j + 42.
-/
import proofs.«126775_j21182778703897_2_alg».proof.Proof.Accumulate

set_option maxRecDepth 16384

noncomputable section

namespace Cert.KernelIdeal.Final

open Cert.KernelIdeal Cert.KernelIdeal.Gen Cert.KernelIdeal.Accumulate
open Idealize.ShloMosaic Idealize.ShloMosaic.TcCoe Idealize.SL.Sem
open Idealize.ShloMosaic.Pipeline (Dat)
open Idealize.ShloMosaic.ValueIdx Cert.GatedMlp

variable (m : (ℓ : Loc nD τ sig) → Buf (Elt Ideal) ℓ)

/-- Half `j`'s partial result at row `r`, column `h`. -/
def partialAt (c : Dev nD) (j : Fin 2) (r : Fin 128) (h : Fin 4096) : EReal :=
  running (xrow m c r) (Wg m c) (Wu m c) (wdrow m c h) (43 * j.val + 42)

/-- The [2,128,4096] array of the two partial results. -/
def partials (c : Dev nD) : S2x128x4096.Idx → EReal := fun i =>
  partialAt m c ⟨(i 0).val, (i 0).isLt⟩ ⟨(i 1).val, (i 1).isLt⟩ ⟨(i 2).val, (i 2).isLt⟩

theorem partials_of (c : Dev nD) (i : S2x128x4096.Idx) (j : Fin 2) (r : Fin 128) (h : Fin 4096)
    (h0 : (i 0).val = j.val) (h1 : (i 1).val = r.val) (h2 : (i 2).val = h.val) :
    partials m c i = partialAt m c j r h := by
  unfold partials
  congr 1 <;> exact Fin.ext ‹_›

/-- WHAT A WRITE-BACK WRITES: at a half's last tile, the block of the partial results. -/
theorem flushed_eq (c : Dev nD) (t : Fin cfg0.N) (hf : (cfg0.win 4).flush t = true) :
    (dats m 0 c).flushed 4 t = ((cfg0.win 4).blk t).view.read (Elt Ideal) (partials m c) := by
  have h42 : t.val % 43 = 42 := (flush0_4 t).mp hf
  have hN : t.val < 86 := Blocks.lt86 t
  obtain ⟨-, -, -, -, e0, e1, e2⟩ := Blocks.idx_facts t
  show (cfg0.win 4).cut (grid0.coords t) ((dats m 0 c).after 4 t) = _
  rw [after0_4]
  funext y
  have y0 : (y 0).val < 1 := (y 0).isLt
  have y1 : (y 1).val < 128 := (y 1).isLt
  have y2 : (y 2).val < 4096 := (y 2).isLt
  show outsAt0 m c t.val t.isLt ((cfg0.win 4).xinj (grid0.coords t) y) = partials m c (((cfg0.win 4).blk t).view.emb y)
  have ex : (cfg0.win 4).xinj (grid0.coords t) y = ix3 (0 : Fin 1) ⟨(y 1).val, y1⟩ ⟨(y 2).val, y2⟩ :=
    funext fun a => Fin.ext (by
      match a with
      | ⟨0, _⟩ => show (y 0).val = 0; omega
      | ⟨1, _⟩ => rfl
      | ⟨2, _⟩ => rfl)
  rw [ex, outsAt_apply m c t.val t.isLt ⟨(y 1).val, y1⟩ ⟨(y 2).val, y2⟩]
  refine Eq.trans ?_ (partials_of m c _ ⟨t.val / 43, by omega⟩ ⟨(y 1).val, y1⟩ ⟨(y 2).val, y2⟩ ?_ ?_ ?_).symm
  · unfold partialAt
    congr 1
    show t.val = 43 * (t.val / 43) + 42
    omega
  · show win0_4.index t 0 * 1 + 1 * (y 0).val = t.val / 43
    rw [e0]; omega
  · show win0_4.index t 1 * 128 + 1 * (y 1).val = (y 1).val
    rw [e1]; omega
  · show win0_4.index t 2 * 4096 + 1 * (y 2).val = (y 2).val
    rw [e2]; omega

/-- An entry is in point `t`'s block iff each coordinate is in the block's range on its axis. -/
theorem mem_blk (t : Fin cfg0.N) (i : S2x128x4096.Idx) :
    i ∈ ((cfg0.win 4).blk t).view.set ↔ ∀ a : Fin 3, win0_4.index t a * S1x128x4096.size a ≤ (i a).val
      ∧ (i a).val < win0_4.index t a * S1x128x4096.size a + S1x128x4096.size a := by
  show i ∈ ((View.whole main_v1).slice (win0_4.rect t)).set ↔ _
  rw [View.set_slice_whole, Rect.mem_set_unit]
  exact Iff.rfl

/-- The two written-back blocks tile the array. -/
theorem cover (i : S2x128x4096.Idx) :
    ∃ t : Fin cfg0.N, (cfg0.win 4).flush t = true ∧ i ∈ ((cfg0.win 4).blk t).view.set := by
  have i0 : (i 0).val < 2 := (i 0).isLt
  have i1 : (i 1).val < 128 := (i 1).isLt
  have i2 : (i 2).val < 4096 := (i 2).isLt
  have hlt : 43 * (i 0).val + 42 < cfg0.N := by rw [show cfg0.N = 86 from N_0]; omega
  refine ⟨⟨43 * (i 0).val + 42, hlt⟩, (flush0_4 _).mpr (by show (43 * (i 0).val + 42) % 43 = 42; omega), ?_⟩
  obtain ⟨-, -, -, -, e0, e1, e2⟩ := Blocks.idx_facts ⟨43 * (i 0).val + 42, hlt⟩
  rw [mem_blk]
  intro a
  match a with
  | ⟨0, _⟩ =>
    show win0_4.index ⟨43 * (i 0).val + 42, hlt⟩ 0 * 1 ≤ (i 0).val ∧ (i 0).val < win0_4.index ⟨43 * (i 0).val + 42, hlt⟩ 0 * 1 + 1
    rw [e0]; show (43 * (i 0).val + 42) / 43 * 1 ≤ (i 0).val ∧ (i 0).val < (43 * (i 0).val + 42) / 43 * 1 + 1; omega
  | ⟨1, _⟩ =>
    show win0_4.index ⟨43 * (i 0).val + 42, hlt⟩ 1 * 128 ≤ (i 1).val ∧ (i 1).val < win0_4.index ⟨43 * (i 0).val + 42, hlt⟩ 1 * 128 + 128
    rw [e1]; omega
  | ⟨2, _⟩ =>
    show win0_4.index ⟨43 * (i 0).val + 42, hlt⟩ 2 * 4096 ≤ (i 2).val ∧ (i 2).val < win0_4.index ⟨43 * (i 0).val + 42, hlt⟩ 2 * 4096 + 4096
    rw [e2]; omega

/-- THE OUTPUT ARRAY AFTER THE RUN: the two partial results. -/
theorem final (c : Dev nD) : (dats m 0 c).arrAt 4 cfg0.N = partials m c :=
  (dats m 0 c).arrAt_eq_of_cover 4 (partials m c) (flushed_eq m c) cover

end Cert.KernelIdeal.Final

end
-- ==== Proof.Target.lean ====
/-
  The result array of the gated MLP as one function of the four argument arrays.

  Entry (b, s, h) of the [4,32,4096] result is the output entry of row (b, s) of the activations and row h of the
  down projection, over the gate and up matrices read row by row.
-/
import proofs.«126775_j21182778703897_2_alg».proof.Proof.Spec
import Idealize.ShloMosaic.Lib.ValueIdx

noncomputable section

namespace Cert.GatedMlp

open Idealize.ShloMosaic Idealize.ShloMosaic.ValueIdx

/-- The MLP over whole arrays. -/
def mlp (x : (⟨3, ![4, 32, 4096]⟩ : Shape).Idx → EReal) (wg wu : (⟨2, ![11008, 4096]⟩ : Shape).Idx → EReal)
    (wdn : (⟨2, ![4096, 11008]⟩ : Shape).Idx → EReal) : (⟨3, ![4, 32, 4096]⟩ : Shape).Idx → EReal := fun i =>
  out (fun k => x (ix3 (⟨(i 0).val, (i 0).isLt⟩ : Fin 4) (⟨(i 1).val, (i 1).isLt⟩ : Fin 32) k))
    (fun n k => wg (ix2 n k)) (fun n k => wu (ix2 n k))
    (fun n => wdn (ix2 (⟨(i 2).val, (i 2).isLt⟩ : Fin 4096) n))

theorem mlp_apply (x : (⟨3, ![4, 32, 4096]⟩ : Shape).Idx → EReal) (wg wu : (⟨2, ![11008, 4096]⟩ : Shape).Idx → EReal)
    (wdn : (⟨2, ![4096, 11008]⟩ : Shape).Idx → EReal) (b : Fin 4) (s : Fin 32) (h : Fin 4096) :
    mlp x wg wu wdn (ix3 b s h)
      = out (fun k => x (ix3 b s k)) (fun n k => wg (ix2 n k)) (fun n k => wu (ix2 n k)) (fun n => wdn (ix2 h n)) := rfl

end Cert.GatedMlp

end
-- ==== Proof.Result.lean ====
/-
  The kernel program's result: the host's sum of the two partial results, reshaped, is the gated MLP.

  After the region the host adds the two halves' partial results from zero and reshapes [128,4096] to [4,32,4096].
  At (b, s, h) that reads 0 + (half 0 + half 1) at row 32·b + s, column h, which is the sum over all 11008 hidden
  units (the regrouping law), row 32·b + s of the reshaped activations being row (b, s) of the argument.
-/
import proofs.«126775_j21182778703897_2_alg».proof.Proof.Final
import proofs.«126775_j21182778703897_2_alg».proof.Proof.Target
import Idealize.ShloMosaic.Lib.StableHlo.Run
import Idealize.ShloMosaic.PureOps.Ideal.Laws

set_option maxRecDepth 16384

noncomputable section

namespace Cert.KernelIdeal.Result

open Cert.KernelIdeal Cert.KernelIdeal.Gen Cert.KernelIdeal.Accumulate
open Idealize.ShloMosaic Idealize.ShloMosaic.TcCoe Idealize.ShloMosaic.Tactic Idealize.SL.Sem
open Idealize.ShloMosaic.Pipeline (Dat)
open Idealize.ShloMosaic.ValueIdx Cert.GatedMlp

variable (m : (ℓ : Loc nD τ sig) → Buf (Elt Ideal) ℓ) (ρ : Dev nD → PrngReg)

/-- The lines after the region leave the result buffer at the reshaped sum of the partial results. -/
theorem tail_eq (c : Dev nD) : Pipeline.afterTail₀ cfgs (dats m) 0 (V0 m) [hostOps1] c main_v3
    = shapeCast S4x32x4096 (Host.reduceAdd (F := Ideal) (Final.partials m c) (constant (F := Ideal) S_ .f32 0x00000000#32)
        reducesTo_S2x128x4096_S128x4096_d0 h_S_) shapeCasts_S128x4096_S4x32x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v1)
      = Final.partials m c :=
    (Pipeline.withArrays_arr spec0 launch0.win.arr_inj c _ _ 4).trans (Final.final m c)
  rw [e]
  rfl

/-- The sum of the two partial results from zero, at row `r`, column `h`. -/
theorem sum_apply (c : Dev nD) (r : Fin 128) (h : Fin 4096) :
    Host.reduceAdd (F := Ideal) (Final.partials m c) (constant (F := Ideal) S_ .f32 0x00000000#32)
        reducesTo_S2x128x4096_S128x4096_d0 h_S_ (ix2 r h)
      = out (xrow m c r) (Wg m c) (Wu m c) (wdrow m c h) := by
  have hR : S2x128x4096.Reduces [0] S128x4096 := by decide
  show Ideal.hostReduceAdd reducesTo_S2x128x4096_S128x4096_d0 (Final.partials m c) (Ideal.ofBits .f32 0x00000000#32) (ix2 r h) = _
  rw [Ideal.hostReduceAdd_single reducesTo_S2x128x4096_S128x4096_d0 hR, Ideal.ofBits_zero_f32, zero_add, out_eq_halves]
  refine Finset.sum_congr rfl fun j _ => ?_
  exact Final.partials_of m c _ j r h rfl rfl rfl

/-- THE RESULT: the lines after the region leave the result buffer at the gated MLP of the argument arrays. -/
theorem tail_mlp (c : Dev nD) : Pipeline.afterTail₀ cfgs (dats m) 0 (V0 m) [hostOps1] c main_v3
    = mlp (m ((c : Thread nD τ).loc main_arg0)) (m ((c : Thread nD τ).loc main_arg1)) (m ((c : Thread nD τ).loc main_arg2))
        (m ((c : Thread nD τ).loc main_arg3)) := by
  rw [tail_eq]
  funext i
  obtain ⟨b, s, h, rfl⟩ : ∃ (b : Fin 4) (s : Fin 32) (h : Fin 4096), i = ix3 b s h := ⟨i 0, i 1, i 2, eq_ix3 i⟩
  have hr : 32 * b.val + s.val < 128 := by have := b.isLt; have := s.isLt; omega
  rw [mlp_apply]
  refine (shapeCast_apply _ _ _ (ix2 (⟨32 * b.val + s.val, hr⟩ : Fin 128) h) ?_).trans ?_
  · show (S128x4096.rowMajor (ix2 (⟨32 * b.val + s.val, hr⟩ : Fin 128) h)).val = (S4x32x4096.rowMajor (ix3 b s h)).val
    rw [Shape.rowMajor_val_three, Shape.rowMajor_val_two]
    show (32 * b.val + s.val) * 4096 + h.val = (b.val * 32 + s.val) * 4096 + h.val
    ring
  · rw [sum_apply]
    have ex : xrow m c (⟨32 * b.val + s.val, hr⟩ : Fin 128) = fun k => m ((c : Thread nD τ).loc main_arg0) (ix3 b s k) :=
      funext fun k => Blocks.V_main_v0_apply m c b s k _ rfl
    rw [ex]
    rfl

/-- THE RUN, READ: every weakly fair execution of the kernel program terminates with the result buffer at the gated
    MLP of the argument arrays and the arguments unchanged. -/
theorem run : θ_run defs (onTc (τ := τ) (main (F := Ideal))) ⟨m, fun _ => 0, ρ⟩ fun r => ∀ c : Dev nD,
      r.2.mem ((c.tc : Thread nD τ).loc main_v3)
        = mlp (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (tail_mlp m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.RefValue.lean ====
/-
  The reference's result, entry by entry, is the gated MLP's output entry.

  The reference computes x·Wgᵀ and x·Wuᵀ over the 4096 input features, applies g · (1 / (1 + e^(-g))) to the first,
  multiplies by the second, and contracts the 11008 hidden units against the down projection. At entry (b, s, h)
  that is `out` of row (b, s) of the activations and row h of the down projection: the quotient 1 / (1 + e^(-g))
  is the logistic function σ(g) on every extended real, the literal 1.0 being the real number one.
-/
import proofs.«126775_j21182778703897_2_alg».proof.Proof.Gen.ReferenceIdeal.Read
import proofs.«126775_j21182778703897_2_alg».proof.Proof.Spec

noncomputable section

namespace Cert.ReferenceIdeal.RefValue

open Cert.ReferenceIdeal Cert.ReferenceIdeal.Read
open Idealize.ShloMosaic Idealize.ShloMosaic.ValueIdx Cert.GatedMlp

/-- The float literal 1.0 is the real number one. -/
theorem one_f32 : Ideal.ofBits .f32 0x3F800000#32 = 1 := by
  simp [Ideal.ofBits, Ideal.ieee, -EReal.coe_mul]; norm_num

/-- The reference's result at (b, s, h). -/
theorem result_apply (x0 : FVec Ideal S4x32x4096 .f32) (x1 x2 : FVec Ideal S11008x4096 .f32) (x3 : FVec Ideal S4096x11008 .f32)
    (b : Fin 4) (s : Fin 32) (h : Fin 4096) :
    val_main_v4 (F := Ideal) x0 x1 x2 x3 (ix3 b s h)
      = out (fun k => x0 (ix3 b s k)) (fun n k => x1 (ix2 n k)) (fun n k => x2 (ix2 n k)) (fun n => x3 (ix2 h n)) := by
  rw [val_main_v4_apply]
  unfold out
  refine Finset.sum_congr rfl fun n _ => ?_
  have eL : lidx_main_v4 (ix3 b s h) n = ix3 b s n :=
    funext fun a => Fin.ext (by match a with | ⟨0, _⟩ => rfl | ⟨1, _⟩ => rfl | ⟨2, _⟩ => rfl)
  have eR : ridx_main_v4 (ix3 b s h) n = ix2 h n :=
    funext fun a => Fin.ext (by match a with | ⟨0, _⟩ => rfl | ⟨1, _⟩ => rfl)
  have eL0 : ∀ k, lidx_main_v0 (ix3 b s n) k = ix3 b s k := fun k =>
    funext fun a => Fin.ext (by match a with | ⟨0, _⟩ => rfl | ⟨1, _⟩ => rfl | ⟨2, _⟩ => rfl)
  have eR0 : ∀ k, ridx_main_v0 (ix3 b s n) k = ix2 n k := fun k =>
    funext fun a => Fin.ext (by match a with | ⟨0, _⟩ => rfl | ⟨1, _⟩ => rfl)
  have eL2 : ∀ k, lidx_main_v2 (ix3 b s n) k = ix3 b s k := fun k =>
    funext fun a => Fin.ext (by match a with | ⟨0, _⟩ => rfl | ⟨1, _⟩ => rfl | ⟨2, _⟩ => rfl)
  have eR2 : ∀ k, ridx_main_v2 (ix3 b s n) k = ix2 n k := fun k =>
    funext fun a => Fin.ext (by match a with | ⟨0, _⟩ => rfl | ⟨1, _⟩ => rfl)
  rw [eL, eR, val_main_v3_apply, val_main_v1_apply, val_main_call0_v5_apply, val_main_call0_v4_apply,
    val_main_call0_cst_0_apply, val_main_call0_v3_apply, val_main_call0_v2_apply, val_main_call0_cst_apply,
    val_main_call0_v1_apply, val_main_call0_v0_apply, val_main_v0_apply, val_main_v2_apply]
  simp only [eL0, eR0, eL2, eR2, Ideal.mulf_def, Ideal.hostDivf_def, Ideal.addf_def, Ideal.hostUnary_exp_def,
    Ideal.hostNegf_def, Ideal.negf_def, Ideal.ofBits_def, one_f32]
  rfl

end Cert.ReferenceIdeal.RefValue

end
-- ==== Proof.lean ====
/-
  The gated MLP kernel against its reference, over the extended reals.

  Both programs compute, for activations x : [4,32,4096], gate and up matrices Wg, Wu : [11008,4096] and a down
  matrix Wd : [4096,11008],

      out[b,s,h] = Σ_{n < 11008}  g_n · σ(g_n) · u_n · Wd[h,n],     g_n = x[b,s,:] · Wg[n,:],   u_n = x[b,s,:] · Wu[n,:],

  with σ(g) = 1 / (1 + e^(-g)). The reference takes the sum over all 11008 hidden units at once. The kernel flattens
  (b, s) to a row r = 32·b + s, cuts the hidden units into 86 tiles of 128 and the tiles into two halves of 43, adds
  the tiles' contributions of each half into one [128,4096] block (zeroed at the half's first tile), and the host adds
  the two halves' blocks from zero and undoes the flattening. The two results agree because addition on the extended
  reals is commutative and associative and zero is its unit: no entry needs to be finite. The changes of float format
  inside the kernel are the identity on the extended reals, and the kernel's logistic function is the reference's
  quotient 1 / (1 + e^(-g)) at every extended real.

  The kernel side is read off its frame run: what one grid point leaves in the output block (Pieces, Payload, Blocks),
  the running sum by induction on the point (Accumulate), the output array after the run (Final), the host's sum and
  reshape (Result). The reference side reads its run one operation at a time (RefValue). The ideal pass rewrote no
  operation, so the kernel's idealization is its own text read on the extended reals.
-/
import proofs.«126775_j21182778703897_2_alg».proof.Defs
import proofs.«126775_j21182778703897_2_alg».proof.Proof.Gen.Kernel
import proofs.«126775_j21182778703897_2_alg».proof.Proof.Gen.Kernel.Skeleton
import proofs.«126775_j21182778703897_2_alg».proof.Proof.Gen.Kernel.Launch
import proofs.«126775_j21182778703897_2_alg».proof.Proof.Gen.Kernel.Points
import proofs.«126775_j21182778703897_2_alg».proof.Proof.Gen.Kernel.Frame
import proofs.«126775_j21182778703897_2_alg».proof.Proof.Gen.KernelIdeal
import proofs.«126775_j21182778703897_2_alg».proof.Proof.Gen.KernelIdeal.Skeleton
import proofs.«126775_j21182778703897_2_alg».proof.Proof.Gen.KernelIdeal.Launch
import proofs.«126775_j21182778703897_2_alg».proof.Proof.Gen.KernelIdeal.Points
import proofs.«126775_j21182778703897_2_alg».proof.Proof.Gen.KernelIdeal.Frame
import proofs.«126775_j21182778703897_2_alg».proof.Proof.Gen.ReferenceIdeal
import proofs.«126775_j21182778703897_2_alg».proof.Proof.Gen.ReferenceIdeal.Run
import proofs.«126775_j21182778703897_2_alg».proof.Proof.Gen.ReferenceIdeal.Read
import proofs.«126775_j21182778703897_2_alg».proof.Proof.Gen.Pre_finite_inputs
import proofs.«126775_j21182778703897_2_alg».proof.Proof.Result
import proofs.«126775_j21182778703897_2_alg».proof.Proof.RefValue
import Idealize.ShloMosaic.Adequacy
import Idealize.ShloMosaic.Init

noncomputable section

namespace Cert.Proof

open Idealize.ShloMosaic Idealize.ShloMosaic.TcCoe Idealize.SL.Sem
open Idealize.ShloMosaic.ValueIdx Cert.GatedMlp

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- On the extended reals the kernel's result buffer and the reference's both end at the gated MLP of the argument
    arrays, which agree. -/
theorem algebraic : Cert.algebraic_KernelIdeal_ReferenceIdeal := by
  intro m ρ m' ρ' _ hagree
  refine ⟨fun c => mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
  rw [(hagree c).1, (hagree c).2.1, (hagree c).2.2.1, (hagree c).2.2.2, Cert.ReferenceIdeal.Read.val_main_v4_eq]
  funext i
  obtain ⟨b, s, h, rfl⟩ : ∃ (b : Fin 4) (s : Fin 32) (h : Fin 4096), i = ix3 b s h := ⟨i 0, i 1, i 2, eq_ix3 i⟩
  exact Cert.ReferenceIdeal.RefValue.result_apply _ _ _ _ b s h

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
